-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2000x128 : Shape := ⟨2, ![2000, 128]⟩
abbrev S500000 : Shape := ⟨1, ![500000]⟩
abbrev S300000 : Shape := ⟨1, ![300000]⟩
abbrev S100000 : Shape := ⟨1, ![100000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S500000 : S_.BroadcastsInDim S500000 (![] : Fin 0 → Fin S500000.rank)
  reducesTo_S500000_S_d0 : S500000.ReducesTo [0] S_
  bcast_S_S300000 : S_.BroadcastsInDim S300000 (![] : Fin 0 → Fin S300000.rank)
  reducesTo_S300000_S_d0 : S300000.ReducesTo [0] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg24 : FVec F S128 .f32) (main_arg25 : FVec F S128x128 .f32) (main_arg26 : FVec F S128 .f32) (main_v63 : IVec S_ 1) (main_v67 : IVec S_ 1) : IVec S_ 1 :=
  let main_v68 : IVec S_ 1 := andi main_v63 main_v67
  let main_v69 : FVec F S128 .f32 := Host.absf main_arg24
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg25
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg26
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg21 : FVec F S128x128 .f32) (main_arg22 : FVec F S128 .f32) (main_arg23 : FVec F S128x128 .f32) (main_arg24 : FVec F S128 .f32) (main_arg25 : FVec F S128x128 .f32) (main_arg26 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg21
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg22
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg23
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg24 main_arg25 main_arg26 main_v63 main_v67

def fn_part2 {F : FTy → Type} [FloatOps F] (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_v33 : IVec S_ 1) : IVec S_ 1 :=
  let main_v34 : FVec F S128x128 .f32 := Host.absf main_arg17
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg18
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg19
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg20
  let main_cst_18 : FVec F S_ .f32 := constant S_ .f32 0x7F800000#32
  let main_v50 : FVec F S128 .f32 := broadcastInDim S128 ![] bcast_S_S128 main_cst_18
  fn_part3 (F := F) main_arg21 main_arg22 main_arg23 main_arg24 main_arg25 main_arg26 main_v48 main_v49 main_v50

def fn_part1 {F : FTy → Type} [FloatOps F] (main_arg10 : FVec F S300000 .f32) (main_arg13 : FVec F S100000 .f32) (main_arg16 : FVec F S50000 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_v13 : IVec S_ 1) (main_v16 : IVec S300000 1) : IVec S_ 1 :=
  let main_c_5 : IVec S_ 1 := constantI S_ 1 1#1
  let main_v17 : IVec S_ 1 := (fun x v => Host.reduce IntOp.andi x v reducesTo_S300000_S_d0 h_S_) main_v16 main_c_5
  let main_v18 : IVec S_ 1 := andi main_v13 main_v17
  let main_v19 : FVec F S300000 .f32 := Host.absf main_arg10
  let main_cst_6 : FVec F S_ .f32 := constant S_ .f32 0x7F800000#32
  let main_v20 : FVec F S300000 .f32 := broadcastInDim S300000 ![] bcast_S_S300000 main_cst_6
  let main_v21 : IVec S300000 1 := cmpf .olt main_v19 main_v20
  let main_c_7 : IVec S_ 1 := constantI S_ 1 1#1
  let main_v22 : IVec S_ 1 := (fun x v => Host.reduce IntOp.andi x v reducesTo_S300000_S_d0 h_S_) main_v21 main_c_7
  let main_v23 : IVec S_ 1 := andi main_v18 main_v22
  let main_v24 : FVec F S100000 .f32 := Host.absf main_arg13
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S50000 .f32 := Host.absf main_arg16
  let main_cst_10 : FVec F S_ .f32 := constant S_ .f32 0x7F800000#32
  let main_v30 : FVec F S50000 .f32 := broadcastInDim S50000 ![] bcast_S_S50000 main_cst_10
  let main_v31 : IVec S50000 1 := cmpf .olt main_v29 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  fn_part2 (F := F) main_arg17 main_arg18 main_arg19 main_arg20 main_arg21 main_arg22 main_arg23 main_arg24 main_arg25 main_arg26 main_v33

def fn {F : FTy → Type} [FloatOps F] (main_arg0 : FVec F S100000x128 .f32) (main_arg1 : FVec F S2000x128 .f32) (main_arg2 : IVec S500000 32) (main_arg3 : IVec S500000 32) (main_arg4 : FVec F S500000 .f32) (main_arg5 : IVec S300000 32) (main_arg6 : IVec S300000 32) (main_arg7 : FVec F S300000 .f32) (main_arg8 : IVec S300000 32) (main_arg9 : IVec S300000 32) (main_arg10 : FVec F S300000 .f32) (main_arg11 : IVec S100000 32) (main_arg12 : IVec S100000 32) (main_arg13 : FVec F S100000 .f32) (main_arg14 : IVec S50000 32) (main_arg15 : IVec S50000 32) (main_arg16 : FVec F S50000 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S500000 .f32 := Host.absf main_arg4
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S300000 .f32 := Host.absf main_arg7
  let main_cst_4 : FVec F S_ .f32 := constant S_ .f32 0x7F800000#32
  let main_v15 : FVec F S300000 .f32 := broadcastInDim S300000 ![] bcast_S_S300000 main_cst_4
  let main_v16 : IVec S300000 1 := cmpf .olt main_v14 main_v15
  fn_part1 (F := F) main_arg10 main_arg13 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S2000x128 : Shape := ⟨2, ![2000, 128]⟩
abbrev S500000 : Shape := ⟨1, ![500000]⟩
abbrev S300000 : Shape := ⟨1, ![300000]⟩
abbrev S100000 : Shape := ⟨1, ![100000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S50000x1 : Shape := ⟨2, ![50000, 1]⟩
abbrev S50000x128 : Shape := ⟨2, ![50000, 128]⟩
abbrev S2000 : Shape := ⟨1, ![2000]⟩
abbrev S2000x1 : Shape := ⟨2, ![2000, 1]⟩
abbrev S300000x1 : Shape := ⟨2, ![300000, 1]⟩
abbrev S300000x128 : Shape := ⟨2, ![300000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 148
  | .vmem => 20
  | .smem => 0
  | _ => 0

abbrev hbmTy0_0 (i : Nat) : BufTy := match i % 128 with
  | 0 => ⟨S100000x128, .f32⟩
  | 1 => ⟨S2000x128, .f32⟩
  | 2 => ⟨S500000, .i32⟩
  | 3 => ⟨S500000, .i32⟩
  | 4 => ⟨S500000, .f32⟩
  | 5 => ⟨S300000, .i32⟩
  | 6 => ⟨S300000, .i32⟩
  | 7 => ⟨S300000, .f32⟩
  | 8 => ⟨S300000, .i32⟩
  | 9 => ⟨S300000, .i32⟩
  | 10 => ⟨S300000, .f32⟩
  | 11 => ⟨S100000, .i32⟩
  | 12 => ⟨S100000, .i32⟩
  | 13 => ⟨S100000, .f32⟩
  | 14 => ⟨S50000, .i32⟩
  | 15 => ⟨S50000, .i32⟩
  | 16 => ⟨S50000, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S1x128, .f32⟩
  | 28 => ⟨S100000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S500000x1, .f32⟩
  | 39 => ⟨S500000x128, .f32⟩
  | 40 => ⟨S500000x128, .f32⟩
  | 41 => ⟨S_, .f32⟩
  | 42 => ⟨S100000x128, .f32⟩
  | 43 => ⟨S500000x1, .i32⟩
  | 44 => ⟨S100000x128, .f32⟩
  | 45 => ⟨S_, .f32⟩
  | 46 => ⟨S500000, .f32⟩
  | 47 => ⟨S_, .f32⟩
  | 48 => ⟨S100000, .f32⟩
  | 49 => ⟨S500000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S1x128, .f32⟩
  | 58 => ⟨S1x128, .f32⟩
  | 59 => ⟨S100000x128, .f32⟩
  | 60 => ⟨S1x128, .f32⟩
  | 61 => ⟨S1x128, .f32⟩
  | 62 => ⟨S2000x128, .f32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S50000x128, .f32⟩
  | 72 => ⟨S50000x1, .f32⟩
  | 73 => ⟨S50000x128, .f32⟩
  | 74 => ⟨S50000x128, .f32⟩
  | 75 => ⟨S_, .f32⟩
  | 76 => ⟨S2000x128, .f32⟩
  | 77 => ⟨S50000x1, .i32⟩
  | 78 => ⟨S2000x128, .f32⟩
  | 79 => ⟨S_, .f32⟩
  | 80 => ⟨S50000, .f32⟩
  | 81 => ⟨S_, .f32⟩
  | 82 => ⟨S2000, .f32⟩
  | 83 => ⟨S50000x1, .i32⟩
  | 84 => ⟨S2000, .f32⟩
  | 85 => ⟨S_, .f32⟩
  | 86 => ⟨S2000, .f32⟩
  | 87 => ⟨S2000, .f32⟩
  | 88 => ⟨S2000x1, .f32⟩
  | 89 => ⟨S2000x128, .f32⟩
  | 90 => ⟨S2000x128, .f32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x128, .f32⟩
  | 100 => ⟨S300000x1, .f32⟩
  | 101 => ⟨S300000x128, .f32⟩
  | 102 => ⟨S300000x128, .f32⟩
  | 103 => ⟨S_, .f32⟩
  | 104 => ⟨S20000x128, .f32⟩
  | 105 => ⟨S300000x1, .i32⟩
  | 106 => ⟨S20000x128, .f32⟩
  | 107 => ⟨S_, .f32⟩
  | 108 => ⟨S300000, .f32⟩
  | 109 => ⟨S_, .f32⟩
  | 110 => ⟨S20000, .f32⟩
  | 111 => ⟨S300000x1, .i32⟩
  | 112 => ⟨S20000, .f32⟩
  | 113 => ⟨S_, .f32⟩
  | 114 => ⟨S20000, .f32⟩
  | 115 => ⟨S20000, .f32⟩
  | 116 => ⟨S20000x1, .f32⟩
  | 117 => ⟨S20000x128, .f32⟩
  | 118 => ⟨S20000x128, .f32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x128, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S_, .f32⟩
  | 4 => ⟨S20000x128, .f32⟩
  | 5 => ⟨S100000x1, .i32⟩
  | 6 => ⟨S20000x128, .f32⟩
  | 7 => ⟨S_, .f32⟩
  | 8 => ⟨S100000, .f32⟩
  | 9 => ⟨S_, .f32⟩
  | 10 => ⟨S20000, .f32⟩
  | 11 => ⟨S100000x1, .i32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x128, .f32⟩
  | 18 => ⟨S20000x128, .f32⟩
  | 19 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_4 : Ref sig .tc := ⟨.hbm, 63, rfl⟩
abbrev main_v30 : Ref sig .tc := ⟨.hbm, 64, rfl⟩
abbrev main_v31 : Ref sig .tc := ⟨.hbm, 65, rfl⟩
abbrev main_c_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_6 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_7 : Ref sig .tc := ⟨.hbm, 79, rfl⟩
abbrev main_v43 : Ref sig .tc := ⟨.hbm, 80, rfl⟩
abbrev main_cst_8 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_10 : Ref sig .tc := ⟨.hbm, 91, rfl⟩
abbrev main_v52 : Ref sig .tc := ⟨.hbm, 92, rfl⟩
abbrev main_v53 : Ref sig .tc := ⟨.hbm, 93, rfl⟩
abbrev main_c_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_cst_14 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_15 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_16 : Ref sig .tc := ⟨.hbm, 119, rfl⟩
abbrev main_v74 : Ref sig .tc := ⟨.hbm, 120, rfl⟩
abbrev main_v75 : Ref sig .tc := ⟨.hbm, 121, rfl⟩
abbrev main_c_17 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_18 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_19 : Ref sig .tc := ⟨.hbm, 135, rfl⟩
abbrev main_v87 : Ref sig .tc := ⟨.hbm, 136, rfl⟩
abbrev main_cst_20 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_21 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2000x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  gather_S2000x128_S50000x1_S50000x128_1_0_n_n_0_1_1128_wf : GatherDims.WF S2000x128 S50000x1 S50000x128 [1] [0] [] [0] [] 1 ![1, 128]
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  gather_S100000x128_S300000x1_S300000x128_1_0_n_n_0_1_1128_wf : GatherDims.WF S100000x128 S300000x1 S300000x128 [1] [0] [] [0] [] 1 ![1, 128]
  scatter_S20000x128_S300000x1_S300000x128_1_0_0_1_wf : ScatterDims.WF S20000x128 S300000x1 S300000x128 [1] [0] [0] 1
  scatter_S20000_S300000x1_S300000_n_0_0_1_wf : ScatterDims.WF S20000 S300000x1 S300000 [] [0] [0] 1
  gather_S2000x128_S100000x1_S100000x128_1_0_n_n_0_1_1128_wf : GatherDims.WF S2000x128 S100000x1 S100000x128 [1] [0] [] [0] [] 1 ![1, 128]
  scatter_S20000x128_S100000x1_S100000x128_1_0_0_1_wf : ScatterDims.WF S20000x128 S100000x1 S100000x128 [1] [0] [0] 1
  scatter_S20000_S100000x1_S100000_n_0_0_1_wf : ScatterDims.WF S20000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S2000x128.size a
  hwx2_0 : ∀ i : grid2.Coords, EltTy.bits .f32 = 32 ∨ (Rect.block (s := S2000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S2000x128.size a
  hwx2_5 : ∀ i : grid2.Coords, EltTy.bits .f32 = 32 ∨ (Rect.block (s := S2000x128) S2000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S2000x128_S50000x1_S50000x128_1_0_n_n_0_1_1128 : GatherDims S2000x128 S50000x1 S50000x128 where
  offsetDims := [1]
  collapsedSliceDims := [0]
  operandBatchingDims := []
  startIndicesBatchingDims := []
  startIndexMap := [0]
  indexVectorDim := 1
  sliceSizes := ![1, 128]
  wf := gather_S2000x128_S50000x1_S50000x128_1_0_n_n_0_1_1128_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S2000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg23) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg25) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S2000x128.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2000x128 : Shape := ⟨2, ![2000, 128]⟩
abbrev S500000 : Shape := ⟨1, ![500000]⟩
abbrev S300000 : Shape := ⟨1, ![300000]⟩
abbrev S100000 : Shape := ⟨1, ![100000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S_ : Shape := ⟨0, ![]⟩
abbrev S500000x1 : Shape := ⟨2, ![500000, 1]⟩
abbrev S500000x128 : Shape := ⟨2, ![500000, 128]⟩
abbrev S100000x1 : Shape := ⟨2, ![100000, 1]⟩
abbrev S50000x1 : Shape := ⟨2, ![50000, 1]⟩
abbrev S50000x128 : Shape := ⟨2, ![50000, 128]⟩
abbrev S2000 : Shape := ⟨1, ![2000]⟩
abbrev S2000x1 : Shape := ⟨2, ![2000, 1]⟩
abbrev S300000x1 : Shape := ⟨2, ![300000, 1]⟩
abbrev S300000x128 : Shape := ⟨2, ![300000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2000x128, .f32⟩
  | 2 => ⟨S500000, .i32⟩
  | 3 => ⟨S500000, .i32⟩
  | 4 => ⟨S500000, .f32⟩
  | 5 => ⟨S300000, .i32⟩
  | 6 => ⟨S300000, .i32⟩
  | 7 => ⟨S300000, .f32⟩
  | 8 => ⟨S300000, .i32⟩
  | 9 => ⟨S300000, .i32⟩
  | 10 => ⟨S300000, .f32⟩
  | 11 => ⟨S100000, .i32⟩
  | 12 => ⟨S100000, .i32⟩
  | 13 => ⟨S100000, .f32⟩
  | 14 => ⟨S50000, .i32⟩
  | 15 => ⟨S50000, .i32⟩
  | 16 => ⟨S50000, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S100000x128, .f32⟩
  | 28 => ⟨S1x128, .f32⟩
  | 29 => ⟨S100000x128, .f32⟩
  | 30 => ⟨S100000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x1, .f32⟩
  | 41 => ⟨S500000x128, .f32⟩
  | 42 => ⟨S500000x128, .f32⟩
  | 43 => ⟨S_, .f32⟩
  | 44 => ⟨S100000x128, .f32⟩
  | 45 => ⟨S500000x1, .i32⟩
  | 46 => ⟨S100000x128, .f32⟩
  | 47 => ⟨S_, .f32⟩
  | 48 => ⟨S500000, .f32⟩
  | 49 => ⟨S_, .f32⟩
  | 50 => ⟨S100000, .f32⟩
  | 51 => ⟨S500000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S2000x128, .f32⟩
  | 68 => ⟨S1x128, .f32⟩
  | 69 => ⟨S2000x128, .f32⟩
  | 70 => ⟨S2000x128, .f32⟩
  | 71 => ⟨S2000x128, .f32⟩
  | 72 => ⟨S1x128, .f32⟩
  | 73 => ⟨S2000x128, .f32⟩
  | 74 => ⟨S2000x128, .f32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x128, .f32⟩
  | 84 => ⟨S50000x1, .f32⟩
  | 85 => ⟨S50000x128, .f32⟩
  | 86 => ⟨S50000x128, .f32⟩
  | 87 => ⟨S_, .f32⟩
  | 88 => ⟨S2000x128, .f32⟩
  | 89 => ⟨S50000x1, .i32⟩
  | 90 => ⟨S2000x128, .f32⟩
  | 91 => ⟨S_, .f32⟩
  | 92 => ⟨S50000, .f32⟩
  | 93 => ⟨S_, .f32⟩
  | 94 => ⟨S2000, .f32⟩
  | 95 => ⟨S50000x1, .i32⟩
  | 96 => ⟨S2000, .f32⟩
  | 97 => ⟨S_, .f32⟩
  | 98 => ⟨S2000, .f32⟩
  | 99 => ⟨S2000, .f32⟩
  | 100 => ⟨S2000x1, .f32⟩
  | 101 => ⟨S2000x128, .f32⟩
  | 102 => ⟨S2000x128, .f32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000x128, .f32⟩
  | 112 => ⟨S300000x1, .f32⟩
  | 113 => ⟨S300000x128, .f32⟩
  | 114 => ⟨S300000x128, .f32⟩
  | 115 => ⟨S_, .f32⟩
  | 116 => ⟨S20000x128, .f32⟩
  | 117 => ⟨S300000x1, .i32⟩
  | 118 => ⟨S20000x128, .f32⟩
  | 119 => ⟨S_, .f32⟩
  | 120 => ⟨S300000, .f32⟩
  | 121 => ⟨S_, .f32⟩
  | 122 => ⟨S20000, .f32⟩
  | 123 => ⟨S300000x1, .i32⟩
  | 124 => ⟨S20000, .f32⟩
  | 125 => ⟨S_, .f32⟩
  | 126 => ⟨S20000, .f32⟩
  | 127 => ⟨S20000, .f32⟩
  | _ => ⟨S100000x128, .f32⟩

abbrev hbmTy0_1 (i : Nat) : BufTy := match i % 128 with
  | 0 => ⟨S20000x1, .f32⟩
  | 1 => ⟨S20000x128, .f32⟩
  | 2 => ⟨S20000x128, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x128, .f32⟩
  | 12 => ⟨S100000x1, .f32⟩
  | 13 => ⟨S100000x128, .f32⟩
  | 14 => ⟨S100000x128, .f32⟩
  | 15 => ⟨S_, .f32⟩
  | 16 => ⟨S20000x128, .f32⟩
  | 17 => ⟨S100000x1, .i32⟩
  | 18 => ⟨S20000x128, .f32⟩
  | 19 => ⟨S_, .f32⟩
  | 20 => ⟨S100000, .f32⟩
  | 21 => ⟨S_, .f32⟩
  | 22 => ⟨S20000, .f32⟩
  | 23 => ⟨S100000x1, .i32⟩
  | 24 => ⟨S20000, .f32⟩
  | 25 => ⟨S_, .f32⟩
  | 26 => ⟨S20000, .f32⟩
  | 27 => ⟨S20000, .f32⟩
  | 28 => ⟨S20000x1, .f32⟩
  | 29 => ⟨S20000x128, .f32⟩
  | 30 => ⟨S20000x128, .f32⟩
  | 31 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_4 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_v55 : Ref sig .tc := ⟨.hbm, 92, rfl⟩
abbrev main_cst_8 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_10 : Ref sig .tc := ⟨.hbm, 103, rfl⟩
abbrev main_v64 : Ref sig .tc := ⟨.hbm, 104, rfl⟩
abbrev main_v65 : Ref sig .tc := ⟨.hbm, 105, rfl⟩
abbrev main_c_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_12 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_13 : Ref sig .tc := ⟨.hbm, 119, rfl⟩
abbrev main_v77 : Ref sig .tc := ⟨.hbm, 120, rfl⟩
abbrev main_cst_14 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_15 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_16 : Ref sig .tc := ⟨.hbm, 131, rfl⟩
abbrev main_v86 : Ref sig .tc := ⟨.hbm, 132, rfl⟩
abbrev main_v87 : Ref sig .tc := ⟨.hbm, 133, rfl⟩
abbrev main_c_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_19 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_21 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S2000x128_0_1 : S1x128.BroadcastsInDim S2000x128 (![0, 1] : Fin 2 → Fin S2000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x128_S2000x128_1_0_0_1_n_n_wf : DotDims.WF S2000x128 S128x128 S2000x128 [1] [0] [0] [1] [] []
  gather_S2000x128_S50000x1_S50000x128_1_0_n_n_0_1_1128_wf : GatherDims.WF S2000x128 S50000x1 S50000x128 [1] [0] [] [0] [] 1 ![1, 128]
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  gather_S100000x128_S300000x1_S300000x128_1_0_n_n_0_1_1128_wf : GatherDims.WF S100000x128 S300000x1 S300000x128 [1] [0] [] [0] [] 1 ![1, 128]
  scatter_S20000x128_S300000x1_S300000x128_1_0_0_1_wf : ScatterDims.WF S20000x128 S300000x1 S300000x128 [1] [0] [0] 1
  scatter_S20000_S300000x1_S300000_n_0_0_1_wf : ScatterDims.WF S20000 S300000x1 S300000 [] [0] [0] 1
  gather_S2000x128_S100000x1_S100000x128_1_0_n_n_0_1_1128_wf : GatherDims.WF S2000x128 S100000x1 S100000x128 [1] [0] [] [0] [] 1 ![1, 128]
  scatter_S20000x128_S100000x1_S100000x128_1_0_0_1_wf : ScatterDims.WF S20000x128 S100000x1 S100000x128 [1] [0] [0] 1
  scatter_S20000_S100000x1_S100000_n_0_0_1_wf : ScatterDims.WF S20000 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S2000x128_S50000x1_S50000x128_1_0_n_n_0_1_1128 : GatherDims S2000x128 S50000x1 S50000x128 where
  offsetDims := [1]
  collapsedSliceDims := [0]
  operandBatchingDims := []
  startIndicesBatchingDims := []
  startIndexMap := [0]
  indexVectorDim := 1
  sliceSizes := ![1, 128]
  wf := gather_S2000x128_S50000x1_S50000x128_1_0_n_n_0_1_1128_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf

class Facts : Prop extends Facts₀ where

variable [Facts]
-- ==== Proof.KernelRun.lean ====
/-
  The idealized kernel program's whole run, with every buffer named.

  The program is seven segments: four stretches of host operations and, between them, three grid launches.  After
  the last segment every buffer of a core that is not scoped to a launch holds the contents obtained by folding
  the segments over the launch memory (`W7`).  This is the same run as the frame statement's, read at every such
  buffer instead of only at the argument arrays.
-/
import proofs.«108096_j23192823399227_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every buffer of a core
    that no launch scopes holds the folded contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Gen

end
-- ==== Proof.LinPay.lean ====
/-
  The three kernel bodies as index-by-index formulas on the extended reals.

  Every body is a linear layer x·W + b (one body applies two in a row).  At the exact instance the roundings to
  bf16 on the way into the matrix unit are the identity, a product into a zero accumulator is the plain sum over
  the contracted axis, and the bias row [1,128] broadcast over the block's rows is read at its column.  So at
  row r and column q a block computes  Σ_k x[r,k]·W[k,q] + b[0,q].
-/
import proofs.«108096_j23192823399227_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Lin

open Cert.KernelIdeal Cert.KernelIdeal.Gen Idealize.ShloMosaic Idealize.ShloMosaic.ValueIdx
open scoped BigOperators

theorem lhs5000_0 (i : S5000x128.Idx) (p : dot_S5000x128_S128x128_S5000x128_1_0_0_1_n_n.contr.Idx) : (dot_S5000x128_S128x128_S5000x128_1_0_0_1_n_n.lhsIdx i p 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs5000_1 (i : S5000x128.Idx) (p : dot_S5000x128_S128x128_S5000x128_1_0_0_1_n_n.contr.Idx) : (dot_S5000x128_S128x128_S5000x128_1_0_0_1_n_n.lhsIdx i p 1).val = (p ⟨0, by decide⟩).val :=
  dot_S5000x128_S128x128_S5000x128_1_0_0_1_n_n.lhsIdx_val_of_single rfl i p
theorem rhs5000_0 (i : S5000x128.Idx) (p : dot_S5000x128_S128x128_S5000x128_1_0_0_1_n_n.contr.Idx) : (dot_S5000x128_S128x128_S5000x128_1_0_0_1_n_n.rhsIdx i p 0).val = (p ⟨0, by decide⟩).val :=
  dot_S5000x128_S128x128_S5000x128_1_0_0_1_n_n.rhsIdx_val_of_single rfl i p
theorem rhs5000_1 (i : S5000x128.Idx) (p : dot_S5000x128_S128x128_S5000x128_1_0_0_1_n_n.contr.Idx) : (dot_S5000x128_S128x128_S5000x128_1_0_0_1_n_n.rhsIdx i p 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128]·[128,128] product into the zero accumulator, read at (r, q): the sum over the 128 contracted
    positions. -/
theorem mm5000_apply (x : FVec Ideal S5000x128 .bf16) (W : FVec Ideal S128x128 .bf16) (r : Fin 5000) (q : Fin 128) :
    matmul (F := Ideal) dot_S5000x128_S128x128_S5000x128_1_0_0_1_n_n none x W (constant S5000x128 .f32 0x00000000#32) (ix2 r q)
      = ∑ k : Fin 128, x (ix2 r k) * W (ix2 k q) := by
  refine (Ideal.matmul_constant_zero_apply dot_S5000x128_S128x128_S5000x128_1_0_0_1_n_n none x W (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k :=
    funext fun a => Fin.ext (by
      match a with
      | ⟨0, _⟩ => exact lhs5000_0 _ _
      | ⟨1, _⟩ => exact (lhs5000_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q :=
    funext fun a => Fin.ext (by
      match a with
      | ⟨0, _⟩ => exact (rhs5000_0 _ _).trans hk
      | ⟨1, _⟩ => exact rhs5000_1 _ _)
  rw [el, er]

theorem lhs2000_0 (i : S2000x128.Idx) (p : dot_S2000x128_S128x128_S2000x128_1_0_0_1_n_n.contr.Idx) : (dot_S2000x128_S128x128_S2000x128_1_0_0_1_n_n.lhsIdx i p 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs2000_1 (i : S2000x128.Idx) (p : dot_S2000x128_S128x128_S2000x128_1_0_0_1_n_n.contr.Idx) : (dot_S2000x128_S128x128_S2000x128_1_0_0_1_n_n.lhsIdx i p 1).val = (p ⟨0, by decide⟩).val :=
  dot_S2000x128_S128x128_S2000x128_1_0_0_1_n_n.lhsIdx_val_of_single rfl i p
theorem rhs2000_0 (i : S2000x128.Idx) (p : dot_S2000x128_S128x128_S2000x128_1_0_0_1_n_n.contr.Idx) : (dot_S2000x128_S128x128_S2000x128_1_0_0_1_n_n.rhsIdx i p 0).val = (p ⟨0, by decide⟩).val :=
  dot_S2000x128_S128x128_S2000x128_1_0_0_1_n_n.rhsIdx_val_of_single rfl i p
theorem rhs2000_1 (i : S2000x128.Idx) (p : dot_S2000x128_S128x128_S2000x128_1_0_0_1_n_n.contr.Idx) : (dot_S2000x128_S128x128_S2000x128_1_0_0_1_n_n.rhsIdx i p 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128]·[128,128] product into the zero accumulator, read at (r, q): the sum over the 128 contracted
    positions. -/
theorem mm2000_apply (x : FVec Ideal S2000x128 .bf16) (W : FVec Ideal S128x128 .bf16) (r : Fin 2000) (q : Fin 128) :
    matmul (F := Ideal) dot_S2000x128_S128x128_S2000x128_1_0_0_1_n_n none x W (constant S2000x128 .f32 0x00000000#32) (ix2 r q)
      = ∑ k : Fin 128, x (ix2 r k) * W (ix2 k q) := by
  refine (Ideal.matmul_constant_zero_apply dot_S2000x128_S128x128_S2000x128_1_0_0_1_n_n none x W (ix2 r q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k :=
    funext fun a => Fin.ext (by
      match a with
      | ⟨0, _⟩ => exact lhs2000_0 _ _
      | ⟨1, _⟩ => exact (lhs2000_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q :=
    funext fun a => Fin.ext (by
      match a with
      | ⟨0, _⟩ => exact (rhs2000_0 _ _).trans hk
      | ⟨1, _⟩ => exact rhs2000_1 _ _)
  rw [el, er]

/-- One linear layer on a [5000,128] block at (r, q): the row of x against the column of W, plus the bias at q. -/
theorem lin5000_apply (x : FVec Ideal S5000x128 .bf16) (W : FVec Ideal S128x128 .bf16) (b : FVec Ideal S1x128 .f32)
    (r : Fin 5000) (q : Fin 128) :
    addf (matmul (F := Ideal) dot_S5000x128_S128x128_S5000x128_1_0_0_1_n_n none x W (constant S5000x128 .f32 0x00000000#32))
        (broadcastTo S5000x128 (shapeCast S1x128 b shapeCasts_S1x128_S1x128) broadcasts_S1x128_S5000x128) (ix2 r q)
      = (∑ k : Fin 128, x (ix2 r k) * W (ix2 k q)) + b (ix2 (0 : Fin 1) q) := by
  refine (addf_apply _ _ _).trans ?_
  rw [mm5000_apply, shapeCast_self]
  exact congrArg _ (broadcastTo_1b_ab_apply b broadcasts_S1x128_S5000x128 r q)

/-- One linear layer on a [2000,128] block at (r, q). -/
theorem lin2000_apply (x : FVec Ideal S2000x128 .bf16) (W : FVec Ideal S128x128 .bf16) (b : FVec Ideal S1x128 .f32)
    (r : Fin 2000) (q : Fin 128) :
    addf (matmul (F := Ideal) dot_S2000x128_S128x128_S2000x128_1_0_0_1_n_n none x W (constant S2000x128 .f32 0x00000000#32))
        (broadcastTo S2000x128 (shapeCast S1x128 b shapeCasts_S1x128_S1x128) broadcasts_S1x128_S2000x128) (ix2 r q)
      = (∑ k : Fin 128, x (ix2 r k) * W (ix2 k q)) + b (ix2 (0 : Fin 1) q) := by
  refine (addf_apply _ _ _).trans ?_
  rw [mm2000_apply, shapeCast_self]
  exact congrArg _ (broadcastTo_1b_ab_apply b broadcasts_S1x128_S2000x128 r q)

/-- The first kernel's stored value at (r, q): x·W + b. -/
theorem pay0_apply (x : Vec Ideal S5000x128 .f32) (W : Vec Ideal S128x128 .f32) (b : Vec Ideal S1x128 .f32)
    (r : Fin 5000) (q : Fin 128) :
    k0_pay1 (F := Ideal) x W b (ix2 r q) = (∑ k : Fin 128, x (ix2 r k) * W (ix2 k q)) + b (ix2 (0 : Fin 1) q) := by
  unfold k0_pay1
  exact lin5000_apply _ _ b r q

/-- The second kernel's stored value at (r, q): (x·W₁ + b₁)·W₂ + b₂, the inner layer read at (r, j) for each
    contracted position j of the outer one. -/
theorem pay1_apply (x : Vec Ideal S5000x128 .f32) (W1 : Vec Ideal S128x128 .f32) (b1 : Vec Ideal S1x128 .f32)
    (W2 : Vec Ideal S128x128 .f32) (b2 : Vec Ideal S1x128 .f32) (r : Fin 5000) (q : Fin 128) :
    k1_pay1 (F := Ideal) x W1 b1 W2 b2 (ix2 r q)
      = (∑ j : Fin 128, ((∑ k : Fin 128, x (ix2 r k) * W1 (ix2 k j)) + b1 (ix2 (0 : Fin 1) j)) * W2 (ix2 j q))
        + b2 (ix2 (0 : Fin 1) q) := by
  unfold k1_pay1
  refine (lin5000_apply _ _ b2 r q).trans ?_
  refine congrArg (· + b2 (ix2 (0 : Fin 1) q)) (Finset.sum_congr rfl fun j _ => congrArg (· * W2 (ix2 j q)) ?_)
  refine (lin5000_apply _ _ b1 r j).trans ?_
  rw [shapeCast_self]
  rfl

/-- The third kernel's stored value at (r, q), on its one [2000,128] block. -/
theorem pay2_apply (x : Vec Ideal S2000x128 .f32) (W1 : Vec Ideal S128x128 .f32) (b1 : Vec Ideal S1x128 .f32)
    (W2 : Vec Ideal S128x128 .f32) (b2 : Vec Ideal S1x128 .f32) (r : Fin 2000) (q : Fin 128) :
    k2_pay1 (F := Ideal) x W1 b1 W2 b2 (ix2 r q)
      = (∑ j : Fin 128, ((∑ k : Fin 128, x (ix2 r k) * W1 (ix2 k j)) + b1 (ix2 (0 : Fin 1) j)) * W2 (ix2 j q))
        + b2 (ix2 (0 : Fin 1) q) := by
  unfold k2_pay1
  refine (lin2000_apply _ _ b2 r q).trans ?_
  refine congrArg (· + b2 (ix2 (0 : Fin 1) q)) (Finset.sum_congr rfl fun j _ => congrArg (· * W2 (ix2 j q)) ?_)
  exact lin2000_apply _ _ b1 r j

/-! ## A linear layer on whole arrays, index by index -/

/-- The fact used for every whole-block access: the block offset `![0, 0]` is the zero function. -/
theorem hz : (![0, 0] : Fin 2 → Nat) = fun _ => 0 := funext fun a => by fin_cases a <;> rfl

/-- Row `i 0`, column `k` of a [100000,128] array: where the left factor of the k-th term is read. -/
abbrev lrow (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of a weight matrix: where the right factor of the k-th term is read. -/
abbrev wcol (i : S100000x128.Idx) (k : Fin 128) : S128x128.Idx := fun a => match a with
  | ⟨0, _⟩ => ⟨k.val, k.isLt⟩
  | ⟨1, _⟩ => ⟨(i 1).val, (i 1).isLt⟩
/-- Column `i 1` of a bias row. -/
abbrev bcol (i : S100000x128.Idx) : S1x128.Idx := fun a => match a with
  | ⟨0, _⟩ => ⟨0, Nat.one_pos⟩
  | ⟨1, _⟩ => ⟨(i 1).val, (i 1).isLt⟩

/-- The same three for a [2000,128] array. -/
abbrev trow (i : S2000x128.Idx) (k : Fin 128) : S2000x128.Idx := fun a => match a with
  | ⟨0, _⟩ => ⟨(i 0).val, (i 0).isLt⟩
  | ⟨1, _⟩ => ⟨k.val, k.isLt⟩
abbrev tcol (i : S2000x128.Idx) (k : Fin 128) : S128x128.Idx := fun a => match a with
  | ⟨0, _⟩ => ⟨k.val, k.isLt⟩
  | ⟨1, _⟩ => ⟨(i 1).val, (i 1).isLt⟩
abbrev tbias (i : S2000x128.Idx) : S1x128.Idx := fun a => match a with
  | ⟨0, _⟩ => ⟨0, Nat.one_pos⟩
  | ⟨1, _⟩ => ⟨(i 1).val, (i 1).isLt⟩

/-- x·W + b on a [100000,128] array, the bias given as a [1,128] row: entry (r, q) is Σ_k X[r,k]·W[k,q] + B[0,q]. -/
def linW (X : S100000x128.Idx → EReal) (W : S128x128.Idx → EReal) (B : S1x128.Idx → EReal) : S100000x128.Idx → EReal :=
  fun i => (∑ k : Fin 128, X (lrow i k) * W (wcol i k)) + B (bcol i)

/-- x·W + b on a [2000,128] array. -/
def linT (X : S2000x128.Idx → EReal) (W : S128x128.Idx → EReal) (B : S1x128.Idx → EReal) : S2000x128.Idx → EReal :=
  fun i => (∑ k : Fin 128, X (trow i k) * W (tcol i k)) + B (tbias i)

end Cert.KernelIdeal.Lin

end
-- ==== Proof.Region0.lean ====
/-
  The first launch: a linear layer over the 100000 rows, 5000 rows per grid point.

  Point t reads rows 5000·t … 5000·t+4999 of the input, the whole weight matrix and the whole bias row, and writes
  back the same rows of the output.  The row blocks tile the output, so after the launch the output array is
  x·W + b of the arrays the launch found, at every index.
-/
import proofs.«108096_j23192823399227_1_alg».proof.Proof.Gen.KernelIdeal.Frame
import proofs.«108096_j23192823399227_1_alg».proof.Proof.LinPay

set_option maxRecDepth 16384

noncomputable section

namespace Cert.KernelIdeal.Lin

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The block index maps over the grid: input and output blocks move down the rows with the point; the weight matrix
    and the bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is its row block of x·W + b. -/
theorem flushed0 (c : Dev nD) (t : Fin cfg0.N) :
    (dat0 (F := Ideal) V c).flushed 3 t
      = ((cfg0.win 3).blk t).view.read (Elt Ideal) (linW (V c main_arg0) (V c main_arg17) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx0 t
  funext j
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (ix2 r q)
    = linW (V c main_arg0) (V c main_arg17) (V c main_v0) (((cfg0.win 3).blk t).view.emb (ix2 r q))
  refine (pay0_apply (iblk0 V c 0 t) (iblk0 V c 1 t) (iblk0 V c 2 t) r q).trans ?_
  unfold linW
  refine congrArg₂ (· + ·) (Finset.sum_congr rfl fun k _ => congrArg₂ (· * ·) ?_ ?_) ?_
  · show V c main_arg0 (((cfg0.win 0).blk t).view.emb (ix2 r k)) = V c main_arg0 (lrow (((cfg0.win 3).blk t).view.emb (ix2 r q)) k)
    refine congrArg _ (funext fun a => Fin.ext ?_)
    match a with
    | ⟨0, _⟩ => show win0_0.index t (0 : Fin 2) * 5000 + 1 * r.val = win0_3.index t (0 : Fin 2) * 5000 + 1 * r.val; omega
    | ⟨1, _⟩ => show win0_0.index t (1 : Fin 2) * 128 + 1 * k.val = k.val; omega
  · show V c main_arg17 (((cfg0.win 1).blk t).view.emb (ix2 k q)) = V c main_arg17 (wcol (((cfg0.win 3).blk t).view.emb (ix2 r q)) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v0 (((cfg0.win 2).blk t).view.emb (ix2 (0 : Fin 1) q)) = V c main_v0 (bcol (((cfg0.win 3).blk t).view.emb (ix2 r q)))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every output index lies in the block of the point that owns its row: row r belongs to point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31⟩ := idx0 t
  have e30' : win0_3.index t (0 : Fin 2) = (i 0).val / 5000 := e30
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the launch the output array is x·W + b of the arrays the launch found. -/
theorem final0 (c : Dev nD) :
    (dat0 (F := Ideal) V c).arrAt 3 cfg0.N = linW (V c main_arg0) (V c main_arg17) (V c main_v0) :=
  (dat0 (F := Ideal) V c).arrAt_eq_of_cover 3 _ (fun t _ => flushed0 V c t) cover0

end Cert.KernelIdeal.Lin

end
-- ==== Proof.Region1.lean ====
/-
  The second launch: two linear layers in a row over the 100000 rows, 5000 rows per grid point.

  Point t reads rows 5000·t … 5000·t+4999 of the input and the two weight matrices and bias rows whole, and writes
  back the same rows of the output; the hidden activation between the layers never leaves the block.  The row blocks
  tile the output, so after the launch the output array is (x·W₁ + b₁)·W₂ + b₂ of the arrays the launch found.
-/
import proofs.«108096_j23192823399227_1_alg».proof.Proof.Gen.KernelIdeal.Frame
import proofs.«108096_j23192823399227_1_alg».proof.Proof.LinPay

set_option maxRecDepth 16384

noncomputable section

namespace Cert.KernelIdeal.Lin

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The block index maps over the grid: input and output blocks move down the rows with the point; the two weight
    matrices and the two bias rows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is its row block of (x·W₁ + b₁)·W₂ + b₂. -/
theorem flushed1 (c : Dev nD) (t : Fin cfg1.N) :
    (dat1 (F := Ideal) V c).flushed 5 t
      = ((cfg1.win 5).blk t).view.read (Elt Ideal)
          (linW (linW (V c main_v23) (V c main_arg19) (V c main_v24)) (V c main_arg21) (V c main_v25)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx1 t
  funext y
  obtain ⟨r, q, rfl⟩ : ∃ (r : Fin 5000) (q : Fin 128), y = ix2 r q := ⟨y 0, y 1, eq_ix2 y⟩
  show k1_pay1 (iblk1 V c 0 t) (iblk1 V c 1 t) (iblk1 V c 2 t) (iblk1 V c 3 t) (iblk1 V c 4 t) (ix2 r q)
    = linW (linW (V c main_v23) (V c main_arg19) (V c main_v24)) (V c main_arg21) (V c main_v25) (((cfg1.win 5).blk t).view.emb (ix2 r q))
  refine (pay1_apply (iblk1 V c 0 t) (iblk1 V c 1 t) (iblk1 V c 2 t) (iblk1 V c 3 t) (iblk1 V c 4 t) r q).trans ?_
  simp only [linW]
  refine congrArg₂ (· + ·) (Finset.sum_congr rfl fun j _ => congrArg₂ (· * ·)
    (congrArg₂ (· + ·) (Finset.sum_congr rfl fun k _ => congrArg₂ (· * ·) ?_ ?_) ?_) ?_) ?_
  · show V c main_v23 (((cfg1.win 0).blk t).view.emb (ix2 r k))
      = V c main_v23 (lrow (lrow (((cfg1.win 5).blk t).view.emb (ix2 r q)) j) k)
    refine congrArg _ (funext fun a => Fin.ext ?_)
    match a with
    | ⟨0, _⟩ => show win1_0.index t (0 : Fin 2) * 5000 + 1 * r.val = win1_5.index t (0 : Fin 2) * 5000 + 1 * r.val; omega
    | ⟨1, _⟩ => show win1_0.index t (1 : Fin 2) * 128 + 1 * k.val = k.val; omega
  · show V c main_arg19 (((cfg1.win 1).blk t).view.emb (ix2 k j))
      = V c main_arg19 (wcol (lrow (((cfg1.win 5).blk t).view.emb (ix2 r q)) j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * j.val = j.val; omega
  · show V c main_v24 (((cfg1.win 2).blk t).view.emb (ix2 (0 : Fin 1) j))
      = V c main_v24 (bcol (lrow (((cfg1.win 5).blk t).view.emb (ix2 r q)) j))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega
  · show V c main_arg21 (((cfg1.win 3).blk t).view.emb (ix2 j q))
      = V c main_arg21 (wcol (((cfg1.win 5).blk t).view.emb (ix2 r q)) j)
    refine congrArg _ (funext fun a => Fin.ext ?_)
    match a with
    | ⟨0, _⟩ => show win1_3.index t (0 : Fin 2) * 128 + 1 * j.val = j.val; omega
    | ⟨1, _⟩ => show win1_3.index t (1 : Fin 2) * 128 + 1 * q.val = win1_5.index t (1 : Fin 2) * 128 + 1 * q.val; omega
  · show V c main_v25 (((cfg1.win 4).blk t).view.emb (ix2 (0 : Fin 1) q))
      = V c main_v25 (bcol (((cfg1.win 5).blk t).view.emb (ix2 r q)))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the output is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Every output index lies in the block of the point that owns its row: row r belongs to point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e41, e50, e51⟩ := idx1 t
  have e50' : win1_5.index t (0 : Fin 2) = (i 0).val / 5000 := e50
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the launch the output array is (x·W₁ + b₁)·W₂ + b₂ of the arrays the launch found. -/
theorem final1 (c : Dev nD) :
    (dat1 (F := Ideal) V c).arrAt 5 cfg1.N
      = linW (linW (V c main_v23) (V c main_arg19) (V c main_v24)) (V c main_arg21) (V c main_v25) :=
  (dat1 (F := Ideal) V c).arrAt_eq_of_cover 5 _ (fun t _ => flushed1 V c t) cover1

end Cert.KernelIdeal.Lin

end
-- ==== Proof.Region2.lean ====
/-
  The third launch: two linear layers in a row over the 2000 topic rows, in one grid point.

  The one point reads the whole input, the two weight matrices and the two bias rows, and writes back the whole
  output: after the launch the output array is (x·W₁ + b₁)·W₂ + b₂ of the arrays the launch found.
-/
import proofs.«108096_j23192823399227_1_alg».proof.Proof.Gen.KernelIdeal.Frame
import proofs.«108096_j23192823399227_1_alg».proof.Proof.LinPay

set_option maxRecDepth 16384

noncomputable section

namespace Cert.KernelIdeal.Lin

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The block index maps over the grid: input and output blocks move down the rows with the point; the two weight
    matrices and the two bias rows stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is its row block of (x·W₁ + b₁)·W₂ + b₂. -/
theorem flushed2 (c : Dev nD) (t : Fin cfg2.N) :
    (dat2 (F := Ideal) V c).flushed 5 t
      = ((cfg2.win 5).blk t).view.read (Elt Ideal)
          (linT (linT (V c main_arg1) (V c main_arg23) (V c main_v27)) (V c main_arg25) (V c main_v28)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx2 t
  funext y
  obtain ⟨r, q, rfl⟩ : ∃ (r : Fin 2000) (q : Fin 128), y = ix2 r q := ⟨y 0, y 1, eq_ix2 y⟩
  show k2_pay1 (iblk2 V c 0 t) (iblk2 V c 1 t) (iblk2 V c 2 t) (iblk2 V c 3 t) (iblk2 V c 4 t) (ix2 r q)
    = linT (linT (V c main_arg1) (V c main_arg23) (V c main_v27)) (V c main_arg25) (V c main_v28) (((cfg2.win 5).blk t).view.emb (ix2 r q))
  refine (pay2_apply (iblk2 V c 0 t) (iblk2 V c 1 t) (iblk2 V c 2 t) (iblk2 V c 3 t) (iblk2 V c 4 t) r q).trans ?_
  simp only [linT]
  refine congrArg₂ (· + ·) (Finset.sum_congr rfl fun j _ => congrArg₂ (· * ·)
    (congrArg₂ (· + ·) (Finset.sum_congr rfl fun k _ => congrArg₂ (· * ·) ?_ ?_) ?_) ?_) ?_
  · show V c main_arg1 (((cfg2.win 0).blk t).view.emb (ix2 r k))
      = V c main_arg1 (trow (trow (((cfg2.win 5).blk t).view.emb (ix2 r q)) j) k)
    refine congrArg _ (funext fun a => Fin.ext ?_)
    match a with
    | ⟨0, _⟩ => show win2_0.index t (0 : Fin 2) * 2000 + 1 * r.val = win2_5.index t (0 : Fin 2) * 2000 + 1 * r.val; omega
    | ⟨1, _⟩ => show win2_0.index t (1 : Fin 2) * 128 + 1 * k.val = k.val; omega
  · show V c main_arg23 (((cfg2.win 1).blk t).view.emb (ix2 k j))
      = V c main_arg23 (tcol (trow (((cfg2.win 5).blk t).view.emb (ix2 r q)) j) k)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * j.val = j.val; omega
  · show V c main_v27 (((cfg2.win 2).blk t).view.emb (ix2 (0 : Fin 1) j))
      = V c main_v27 (tbias (trow (((cfg2.win 5).blk t).view.emb (ix2 r q)) j))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * j.val = j.val; omega
  · show V c main_arg25 (((cfg2.win 3).blk t).view.emb (ix2 j q))
      = V c main_arg25 (tcol (((cfg2.win 5).blk t).view.emb (ix2 r q)) j)
    refine congrArg _ (funext fun a => Fin.ext ?_)
    match a with
    | ⟨0, _⟩ => show win2_3.index t (0 : Fin 2) * 128 + 1 * j.val = j.val; omega
    | ⟨1, _⟩ => show win2_3.index t (1 : Fin 2) * 128 + 1 * q.val = win2_5.index t (1 : Fin 2) * 128 + 1 * q.val; omega
  · show V c main_v28 (((cfg2.win 4).blk t).view.emb (ix2 (0 : Fin 1) q))
      = V c main_v28 (tbias (((cfg2.win 5).blk t).view.emb (ix2 r q)))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the output is in point t's block iff each coordinate is in the block's range on its axis. -/
theorem mem_blk2 (t : Fin cfg2.N) (i : S2000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v29).slice (win2_5.rect t)).set ↔ _
  rw [View.set_slice_whole, Rect.mem_set_unit]
  exact Iff.rfl

/-- Every output index lies in the block of the point that owns its row: row r belongs to point r / 2000. -/
theorem cover2 (i : S2000x128.Idx) :
    ∃ t : Fin cfg2.N, (cfg2.win 5).flush t = true ∧ i ∈ ((cfg2.win 5).blk t).view.set := by
  have hi0 : (i 0).val < 2000 := (i 0).isLt
  have hi1 : (i 1).val < 128 := (i 1).isLt
  have hN : cfg2.N = 1 := N_2
  let t : Fin cfg2.N := ⟨(i 0).val / 2000, by rw [hN]; omega⟩
  obtain ⟨e00, e01, e10, e11, e20, e21, e30, e31, e40, e41, e50, e51⟩ := idx2 t
  have e50' : win2_5.index t (0 : Fin 2) = (i 0).val / 2000 := e50
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the launch the output array is (x·W₁ + b₁)·W₂ + b₂ of the arrays the launch found. -/
theorem final2 (c : Dev nD) :
    (dat2 (F := Ideal) V c).arrAt 5 cfg2.N
      = linT (linT (V c main_arg1) (V c main_arg23) (V c main_v27)) (V c main_arg25) (V c main_v28) :=
  (dat2 (F := Ideal) V c).arrAt_eq_of_cover 5 _ (fun t _ => flushed2 V c t) cover2

end Cert.KernelIdeal.Lin

end
-- ==== Proof.RefLin.lean ====
/-
  The reference's linear layer is the same whole-array function as the kernels'.

  The reference computes a layer as a host product over the contracted axis plus the bias vector broadcast over the
  rows.  At the exact instance the host product at (r, q) is Σ_k X[r,k]·W[k,q], and the broadcast bias at (r, q) is
  b[q]; the kernels receive the bias as the [1,128] reshape of the same vector, whose entry (0, q) is b[q].
-/
import proofs.«108096_j23192823399227_1_alg».proof.Proof.Gen.ReferenceIdeal.Read
import proofs.«108096_j23192823399227_1_alg».proof.Proof.LinPay

noncomputable section

namespace Cert.Bridge

open Idealize.ShloMosaic Idealize.ShloMosaic.ValueIdx Cert.KernelIdeal.Lin
open scoped BigOperators

/-- The [1,128] reshape of a bias vector, read at a row index built from an output index, is the vector at the
    output's column. -/
theorem bias_row (b : FVec Ideal Cert.KernelIdeal.S128 .f32) (h : Cert.KernelIdeal.S128.ShapeCasts Cert.KernelIdeal.S1x128)
    (i : Cert.KernelIdeal.S100000x128.Idx) :
    shapeCast Cert.KernelIdeal.S1x128 b h (bcol i) = b (ix1 ⟨(i 1).val, (i 1).isLt⟩) := by
  have hb : bcol i = ix2 (0 : Fin 1) (⟨(i 1).val, (i 1).isLt⟩ : Fin 128) :=
    funext fun a => by match a with | ⟨0, _⟩ => rfl | ⟨1, _⟩ => rfl
  rw [hb]
  exact shapeCast_a_1a_apply b h (0 : Fin 1) ⟨(i 1).val, (i 1).isLt⟩

/-- The same for an index of a [2000,128] array. -/
theorem bias_rowT (b : FVec Ideal Cert.KernelIdeal.S128 .f32) (h : Cert.KernelIdeal.S128.ShapeCasts Cert.KernelIdeal.S1x128)
    (i : Cert.KernelIdeal.S2000x128.Idx) :
    shapeCast Cert.KernelIdeal.S1x128 b h (tbias i) = b (ix1 ⟨(i 1).val, (i 1).isLt⟩) := by
  have hb : tbias i = ix2 (0 : Fin 1) (⟨(i 1).val, (i 1).isLt⟩ : Fin 128) :=
    funext fun a => by match a with | ⟨0, _⟩ => rfl | ⟨1, _⟩ => rfl
  rw [hb]
  exact shapeCast_a_1a_apply b h (0 : Fin 1) ⟨(i 1).val, (i 1).isLt⟩

/-- The reference's layer over 100000 rows (its first three operations, as a function of any three operands) is
    x·W + b with the bias reshaped to a row. -/
theorem refLinW (X : FVec Ideal Cert.ReferenceIdeal.S100000x128 .f32) (W : FVec Ideal Cert.ReferenceIdeal.S128x128 .f32)
    (b : FVec Ideal Cert.ReferenceIdeal.S128 .f32) (h : Cert.KernelIdeal.S128.ShapeCasts Cert.KernelIdeal.S1x128) :
    Cert.ReferenceIdeal.Read.val_main_v3 (F := Ideal) X W b
      = linW X W (shapeCast Cert.KernelIdeal.S1x128 b h) := by
  funext i
  rw [Cert.ReferenceIdeal.Read.val_main_v3_apply, Cert.ReferenceIdeal.Read.val_main_v0_apply,
    Cert.ReferenceIdeal.Read.val_main_v2_apply, Cert.ReferenceIdeal.Read.val_main_v1_apply, Ideal.addf_def]
  unfold linW
  rw [bias_row]
  refine congrArg₂ (· + ·) (Finset.sum_congr rfl fun k _ => congrArg₂ (· * ·)
    (congrArg X (funext fun a => by match a with | ⟨0, _⟩ => rfl | ⟨1, _⟩ => rfl))
    (congrArg W (funext fun a => by match a with | ⟨0, _⟩ => rfl | ⟨1, _⟩ => rfl)))
    (congrArg b (funext fun a => by match a with | ⟨0, _⟩ => rfl))

/-- The reference's layer over 2000 rows is x·W + b with the bias reshaped to a row. -/
theorem refLinT (X : FVec Ideal Cert.ReferenceIdeal.S2000x128 .f32) (W : FVec Ideal Cert.ReferenceIdeal.S128x128 .f32)
    (b : FVec Ideal Cert.ReferenceIdeal.S128 .f32) (h : Cert.KernelIdeal.S128.ShapeCasts Cert.KernelIdeal.S1x128) :
    Cert.ReferenceIdeal.Read.val_main_v37 (F := Ideal) X W b
      = linT X W (shapeCast Cert.KernelIdeal.S1x128 b h) := by
  funext i
  rw [Cert.ReferenceIdeal.Read.val_main_v37_apply, Cert.ReferenceIdeal.Read.val_main_v34_apply,
    Cert.ReferenceIdeal.Read.val_main_v36_apply, Cert.ReferenceIdeal.Read.val_main_v35_apply, Ideal.addf_def]
  unfold linT
  rw [bias_rowT]
  refine congrArg₂ (· + ·) (Finset.sum_congr rfl fun k _ => congrArg₂ (· * ·)
    (congrArg X (funext fun a => by match a with | ⟨0, _⟩ => rfl | ⟨1, _⟩ => rfl))
    (congrArg W (funext fun a => by match a with | ⟨0, _⟩ => rfl | ⟨1, _⟩ => rfl)))
    (congrArg b (funext fun a => by match a with | ⟨0, _⟩ => rfl))

end Cert.Bridge

end
-- ==== Proof.Walk.lean ====
/-
  The idealized kernel program's three results as functions of its arguments.

  Folding the seven segments over the launch memory: no segment writes an argument array, so each is read back
  unchanged at every boundary; each launch leaves its linear layers of the arrays it found (the three launch modules);
  and each stretch of host operations leaves the composition of its operations.  The host operations around the
  launches — the gathers, the weighted scatter-sums, the degree counts and the divisions of the graph aggregation —
  are the reference's own operations in the reference's own order, applied here to the launches' outputs where the
  reference applies them to its host products.  Since a launch's output is the reference's linear layer of the same
  operands, each result is the reference's composed term of the arguments.
-/
import proofs.«108096_j23192823399227_1_alg».proof.Proof.Gen.KernelIdeal.Frame
import proofs.«108096_j23192823399227_1_alg».proof.Proof.Region0
import proofs.«108096_j23192823399227_1_alg».proof.Proof.Region1
import proofs.«108096_j23192823399227_1_alg».proof.Proof.Region2
import proofs.«108096_j23192823399227_1_alg».proof.Proof.RefLin

set_option maxRecDepth 16384

noncomputable section

namespace Cert.KernelIdeal.Gen

open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the boundaries where they are read -/

theorem W1_arg0 : W1 m ρ c (Proc.devRef .tc main_arg0) = m ((c : Thread nD τ).loc main_arg0) := by
  show StableHlo.after hostOps0 (W0 m ρ c) (Proc.devRef .tc main_arg0) = _
  after_results

theorem W1_arg17 : W1 m ρ c (Proc.devRef .tc main_arg17) = m ((c : Thread nD τ).loc main_arg17) := by
  show StableHlo.after hostOps0 (W0 m ρ c) (Proc.devRef .tc main_arg17) = _
  after_results

theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

theorem W2_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

theorem W2_arg4 : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

theorem W2_arg20 : W2 m ρ c (Proc.devRef .tc main_arg20) = m ((c : Thread nD τ).loc main_arg20) := by
  rw [W2_of_ne m ρ c main_arg20 (by decide)]
  show StableHlo.after hostOps0 (W0 m ρ c) (Proc.devRef .tc main_arg20) = _
  after_results

theorem W2_arg22 : W2 m ρ c (Proc.devRef .tc main_arg22) = m ((c : Thread nD τ).loc main_arg22) := by
  rw [W2_of_ne m ρ c main_arg22 (by decide)]
  show StableHlo.after hostOps0 (W0 m ρ c) (Proc.devRef .tc main_arg22) = _
  after_results

theorem W3_arg19 : W3 m ρ c (Proc.devRef .tc main_arg19) = m ((c : Thread nD τ).loc main_arg19) := by
  show StableHlo.after hostOps1 (W2 m ρ c) (Proc.devRef .tc main_arg19) = _
  after_results_simp
  rw [W2_of_ne m ρ c main_arg19 (by decide)]
  show StableHlo.after hostOps0 (W0 m ρ c) (Proc.devRef .tc main_arg19) = _
  after_results

theorem W3_arg21 : W3 m ρ c (Proc.devRef .tc main_arg21) = m ((c : Thread nD τ).loc main_arg21) := by
  show StableHlo.after hostOps1 (W2 m ρ c) (Proc.devRef .tc main_arg21) = _
  after_results_simp
  rw [W2_of_ne m ρ c main_arg21 (by decide)]
  show StableHlo.after hostOps0 (W0 m ρ c) (Proc.devRef .tc main_arg21) = _
  after_results

theorem W4_arg24 : W4 m ρ c (Proc.devRef .tc main_arg24) = m ((c : Thread nD τ).loc main_arg24) := by
  rw [W4_of_ne m ρ c main_arg24 (by decide)]
  show StableHlo.after hostOps1 (W2 m ρ c) (Proc.devRef .tc main_arg24) = _
  after_results_simp
  rw [W2_of_ne m ρ c main_arg24 (by decide)]
  show StableHlo.after hostOps0 (W0 m ρ c) (Proc.devRef .tc main_arg24) = _
  after_results

theorem W4_arg26 : W4 m ρ c (Proc.devRef .tc main_arg26) = m ((c : Thread nD τ).loc main_arg26) := by
  rw [W4_of_ne m ρ c main_arg26 (by decide)]
  show StableHlo.after hostOps1 (W2 m ρ c) (Proc.devRef .tc main_arg26) = _
  after_results_simp
  rw [W2_of_ne m ρ c main_arg26 (by decide)]
  show StableHlo.after hostOps0 (W0 m ρ c) (Proc.devRef .tc main_arg26) = _
  after_results

theorem W5_arg1 : W5 m ρ c (Proc.devRef .tc main_arg1) = m ((c : Thread nD τ).loc main_arg1) := by
  show StableHlo.after hostOps2 (W4 m ρ c) (Proc.devRef .tc main_arg1) = _
  after_results
  rw [W4_of_ne m ρ c main_arg1 (by decide)]
  show StableHlo.after hostOps1 (W2 m ρ c) (Proc.devRef .tc main_arg1) = _
  after_results_simp
  rw [W2_of_ne m ρ c main_arg1 (by decide)]
  show StableHlo.after hostOps0 (W0 m ρ c) (Proc.devRef .tc main_arg1) = _
  after_results

theorem W5_arg23 : W5 m ρ c (Proc.devRef .tc main_arg23) = m ((c : Thread nD τ).loc main_arg23) := by
  show StableHlo.after hostOps2 (W4 m ρ c) (Proc.devRef .tc main_arg23) = _
  after_results
  rw [W4_of_ne m ρ c main_arg23 (by decide)]
  show StableHlo.after hostOps1 (W2 m ρ c) (Proc.devRef .tc main_arg23) = _
  after_results_simp
  rw [W2_of_ne m ρ c main_arg23 (by decide)]
  show StableHlo.after hostOps0 (W0 m ρ c) (Proc.devRef .tc main_arg23) = _
  after_results

theorem W5_arg25 : W5 m ρ c (Proc.devRef .tc main_arg25) = m ((c : Thread nD τ).loc main_arg25) := by
  show StableHlo.after hostOps2 (W4 m ρ c) (Proc.devRef .tc main_arg25) = _
  after_results
  rw [W4_of_ne m ρ c main_arg25 (by decide)]
  show StableHlo.after hostOps1 (W2 m ρ c) (Proc.devRef .tc main_arg25) = _
  after_results_simp
  rw [W2_of_ne m ρ c main_arg25 (by decide)]
  show StableHlo.after hostOps0 (W0 m ρ c) (Proc.devRef .tc main_arg25) = _
  after_results

theorem W6_arg14 : W6 m ρ c (Proc.devRef .tc main_arg14) = m ((c : Thread nD τ).loc main_arg14) := by
  rw [W6_of_ne m ρ c main_arg14 (by decide)]
  show StableHlo.after hostOps2 (W4 m ρ c) (Proc.devRef .tc main_arg14) = _
  after_results
  rw [W4_of_ne m ρ c main_arg14 (by decide)]
  show StableHlo.after hostOps1 (W2 m ρ c) (Proc.devRef .tc main_arg14) = _
  after_results_simp
  rw [W2_of_ne m ρ c main_arg14 (by decide)]
  show StableHlo.after hostOps0 (W0 m ρ c) (Proc.devRef .tc main_arg14) = _
  after_results

theorem W6_arg15 : W6 m ρ c (Proc.devRef .tc main_arg15) = m ((c : Thread nD τ).loc main_arg15) := by
  rw [W6_of_ne m ρ c main_arg15 (by decide)]
  show StableHlo.after hostOps2 (W4 m ρ c) (Proc.devRef .tc main_arg15) = _
  after_results
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results

theorem W6_arg16 : W6 m ρ c (Proc.devRef .tc main_arg16) = m ((c : Thread nD τ).loc main_arg16) := by
  rw [W6_of_ne m ρ c main_arg16 (by decide)]
  show StableHlo.after hostOps2 (W4 m ρ c) (Proc.devRef .tc main_arg16) = _
  after_results
  rw [W4_of_ne m ρ c main_arg16 (by decide)]
  show StableHlo.after hostOps1 (W2 m ρ c) (Proc.devRef .tc main_arg16) = _
  after_results_simp
  rw [W2_of_ne m ρ c main_arg16 (by decide)]
  show StableHlo.after hostOps0 (W0 m ρ c) (Proc.devRef .tc main_arg16) = _
  after_results

theorem W6_arg8 : W6 m ρ c (Proc.devRef .tc main_arg8) = m ((c : Thread nD τ).loc main_arg8) := by
  rw [W6_of_ne m ρ c main_arg8 (by decide)]
  show StableHlo.after hostOps2 (W4 m ρ c) (Proc.devRef .tc main_arg8) = _
  after_results
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results

theorem W6_arg9 : W6 m ρ c (Proc.devRef .tc main_arg9) = m ((c : Thread nD τ).loc main_arg9) := by
  rw [W6_of_ne m ρ c main_arg9 (by decide)]
  show StableHlo.after hostOps2 (W4 m ρ c) (Proc.devRef .tc main_arg9) = _
  after_results
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results

theorem W6_arg10 : W6 m ρ c (Proc.devRef .tc main_arg10) = m ((c : Thread nD τ).loc main_arg10) := by
  rw [W6_of_ne m ρ c main_arg10 (by decide)]
  show StableHlo.after hostOps2 (W4 m ρ c) (Proc.devRef .tc main_arg10) = _
  after_results
  rw [W4_of_ne m ρ c main_arg10 (by decide)]
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results

theorem W6_arg11 : W6 m ρ c (Proc.devRef .tc main_arg11) = m ((c : Thread nD τ).loc main_arg11) := by
  rw [W6_of_ne m ρ c main_arg11 (by decide)]
  show StableHlo.after hostOps2 (W4 m ρ c) (Proc.devRef .tc main_arg11) = _
  after_results
  rw [W4_of_ne m ρ c main_arg11 (by decide)]
  show StableHlo.after hostOps1 (W2 m ρ c) (Proc.devRef .tc main_arg11) = _
  after_results_simp
  rw [W2_of_ne m ρ c main_arg11 (by decide)]
  show StableHlo.after hostOps0 (W0 m ρ c) (Proc.devRef .tc main_arg11) = _
  after_results

theorem W6_arg12 : W6 m ρ c (Proc.devRef .tc main_arg12) = m ((c : Thread nD τ).loc main_arg12) := by
  rw [W6_of_ne m ρ c main_arg12 (by decide)]
  show StableHlo.after hostOps2 (W4 m ρ c) (Proc.devRef .tc main_arg12) = _
  after_results
  rw [W4_of_ne m ρ c main_arg12 (by decide)]
  show StableHlo.after hostOps1 (W2 m ρ c) (Proc.devRef .tc main_arg12) = _
  after_results_simp
  rw [W2_of_ne m ρ c main_arg12 (by decide)]
  show StableHlo.after hostOps0 (W0 m ρ c) (Proc.devRef .tc main_arg12) = _
  after_results

theorem W6_arg13 : W6 m ρ c (Proc.devRef .tc main_arg13) = m ((c : Thread nD τ).loc main_arg13) := by
  rw [W6_of_ne m ρ c main_arg13 (by decide)]
  show StableHlo.after hostOps2 (W4 m ρ c) (Proc.devRef .tc main_arg13) = _
  after_results
  rw [W4_of_ne m ρ c main_arg13 (by decide)]
  show StableHlo.after hostOps1 (W2 m ρ c) (Proc.devRef .tc main_arg13) = _
  after_results_simp
  rw [W2_of_ne m ρ c main_arg13 (by decide)]
  show StableHlo.after hostOps0 (W0 m ρ c) (Proc.devRef .tc main_arg13) = _
  after_results

/-! ## The reshaped bias rows -/

theorem W1_v0 : (W1 m ρ c (Proc.devRef .tc main_v0) : S1x128.Idx → EReal) = shapeCast S1x128 (m ((c : Thread nD τ).loc main_arg18)) shapeCasts_S128_S1x128 := by
  show StableHlo.after hostOps0 (W0 m ρ c) (Proc.devRef .tc main_v0) = _
  after_results
  rfl

theorem W3_v24 : (W3 m ρ c (Proc.devRef .tc main_v24) : S1x128.Idx → EReal) = shapeCast S1x128 (m ((c : Thread nD τ).loc main_arg20)) shapeCasts_S128_S1x128 := by
  show StableHlo.after hostOps1 (W2 m ρ c) (Proc.devRef .tc main_v24) = _
  after_results_simp
  rw [W2_arg20]
  rfl

theorem W3_v25 : (W3 m ρ c (Proc.devRef .tc main_v25) : S1x128.Idx → EReal) = shapeCast S1x128 (m ((c : Thread nD τ).loc main_arg22)) shapeCasts_S128_S1x128 := by
  show StableHlo.after hostOps1 (W2 m ρ c) (Proc.devRef .tc main_v25) = _
  after_results_simp
  rw [W2_arg22]
  rfl

theorem W5_v27 : (W5 m ρ c (Proc.devRef .tc main_v27) : S1x128.Idx → EReal) = shapeCast S1x128 (m ((c : Thread nD τ).loc main_arg24)) shapeCasts_S128_S1x128 := by
  show StableHlo.after hostOps2 (W4 m ρ c) (Proc.devRef .tc main_v27) = _
  after_results
  rw [W4_arg24]
  rfl

theorem W5_v28 : (W5 m ρ c (Proc.devRef .tc main_v28) : S1x128.Idx → EReal) = shapeCast S1x128 (m ((c : Thread nD τ).loc main_arg26)) shapeCasts_S128_S1x128 := by
  show StableHlo.after hostOps2 (W4 m ρ c) (Proc.devRef .tc main_v28) = _
  after_results
  rw [W4_arg26]
  rfl

/-! ## The launches' outputs and the aggregations between them -/

/-- The first launch leaves the reference's first linear layer of the word features. -/
theorem W2_v1 : W2 m ρ c (Proc.devRef .tc main_v1) = Cert.ReferenceIdeal.Read.val_main_v3 (F := Ideal) (m ((c : Thread nD τ).loc main_arg0)) (m ((c : Thread nD τ).loc main_arg17)) (m ((c : Thread nD τ).loc main_arg18)) := by
  refine (W2_arr m ρ c 3).trans ((Lin.final0 (V1 m ρ) c).trans ?_)
  dsimp only [V1]
  rw [W1_arg0, W1_arg17, W1_v0, ← Cert.Bridge.refLinW]

/-- The aggregation over the word–word edges, applied to it, is the reference's. -/
theorem W3_v23 : W3 m ρ c (Proc.devRef .tc main_v23) = Cert.ReferenceIdeal.Read.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg17)) (m ((c : Thread nD τ).loc main_arg18)) := by
  show StableHlo.after hostOps1 (W2 m ρ c) (Proc.devRef .tc main_v23) = _
  after_results_simp
  rw [W2_v1, W2_arg2, W2_arg3, W2_arg4]
  rfl

/-- The second launch leaves the reference's two further layers of the aggregated word features. -/
theorem W4_v26 : W4 m ρ c (Proc.devRef .tc main_v26) = Cert.ReferenceIdeal.Read.val_main_v33 (F := Ideal) (m ((c : Thread nD τ).loc main_arg0)) (m ((c : Thread nD τ).loc main_arg2)) (m ((c : Thread nD τ).loc main_arg3)) (m ((c : Thread nD τ).loc main_arg4)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W4_arr m ρ c 5).trans ((Lin.final1 (V3 m ρ) c).trans ?_)
  dsimp only [V3]
  rw [W3_v23, W3_arg19, W3_v24, W3_arg21, W3_v25, ← Cert.Bridge.refLinW, ← Cert.Bridge.refLinW]
  rfl

/-- The third launch leaves the reference's two layers of the topic features. -/
theorem W6_v29 : W6 m ρ c (Proc.devRef .tc main_v29) = Cert.ReferenceIdeal.Read.val_main_v41 (F := Ideal) (m ((c : Thread nD τ).loc main_arg1)) (m ((c : Thread nD τ).loc main_arg23)) (m ((c : Thread nD τ).loc main_arg24)) (m ((c : Thread nD τ).loc main_arg25)) (m ((c : Thread nD τ).loc main_arg26)) := by
  refine (W6_arr m ρ c 5).trans ((Lin.final2 (V5 m ρ) c).trans ?_)
  dsimp only [V5]
  rw [W5_arg1, W5_arg23, W5_v27, W5_arg25, W5_v28, ← Cert.Bridge.refLinT, ← Cert.Bridge.refLinT]
  rfl

/-- The third launch does not touch the second launch's output. -/
theorem W6_v26 : W6 m ρ c (Proc.devRef .tc main_v26) = Cert.ReferenceIdeal.Read.val_main_v33 (F := Ideal) (m ((c : Thread nD τ).loc main_arg0)) (m ((c : Thread nD τ).loc main_arg2)) (m ((c : Thread nD τ).loc main_arg3)) (m ((c : Thread nD τ).loc main_arg4)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [W6_of_ne m ρ c main_v26 (by decide)]
  show StableHlo.after hostOps2 (W4 m ρ c) (Proc.devRef .tc main_v26) = _
  after_results
  exact W4_v26 m ρ c

/-! ## The three results -/

/-- The word result is the second launch's output, which no later segment writes. -/
theorem W7_v26 : W7 m ρ c (Proc.devRef .tc main_v26) = Cert.ReferenceIdeal.Read.val_main_v33 (F := Ideal) (m ((c : Thread nD τ).loc main_arg0)) (m ((c : Thread nD τ).loc main_arg2)) (m ((c : Thread nD τ).loc main_arg3)) (m ((c : Thread nD τ).loc main_arg4)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show StableHlo.after hostOps3 (W6 m ρ c) (Proc.devRef .tc main_v26) = _
  after_results_simp
  exact W6_v26 m ρ c

/-- The topic result: the aggregation over the topic–topic edges of the third launch's output. -/
theorem W7_v51 : W7 m ρ c (Proc.devRef .tc main_v51) = Cert.ReferenceIdeal.Read.val_main_v63 (F := Ideal) (m ((c : Thread nD τ).loc main_arg1)) (m ((c : Thread nD τ).loc main_arg14)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) := by
  show StableHlo.after hostOps3 (W6 m ρ c) (Proc.devRef .tc main_v51) = _
  after_results_simp
  rw [W6_v29, W6_arg14, W6_arg15, W6_arg16]
  rfl

set_option maxHeartbeats 8000000 in
/-- The document result: the sum of the aggregations over the word–document and topic–document edges. -/
theorem W7_v96 : W7 m ρ c (Proc.devRef .tc main_v96) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  show StableHlo.after hostOps3 (W6 m ρ c) (Proc.devRef .tc main_v96) = _
  after_results_simp
  rw [W6_v26, W6_v29, W6_arg8, W6_arg9, W6_arg10, W6_arg11, W6_arg12, W6_arg13]
  rfl

end Cert.KernelIdeal.Gen

end
-- ==== Proof.KernelValue.lean ====
/-
  The idealized kernel program's run with its three results named.

  Every weakly fair execution terminates without a fault; the word, topic and document results end at the
  reference's composed terms of the arguments, and the arguments end unchanged.
-/
import proofs.«108096_j23192823399227_1_alg».proof.Proof.KernelRun
import proofs.«108096_j23192823399227_1_alg».proof.Proof.Walk

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The run of the idealized kernel program, its results read as functions of the arguments. -/
theorem run : θ_run defs (onTc (τ := τ) (main (F := Ideal))) ⟨m, fun _ => 0, ρ⟩ (fun r => ∀ c : Dev nD,
      r.2.mem ((c.tc : Thread nD τ).loc main_v26) = Cert.ReferenceIdeal.Read.val_main_v33 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v51) = Cert.ReferenceIdeal.Read.val_main_v63 (F := Ideal) (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_v96) = Cert.ReferenceIdeal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_v26 (by decide))).trans (W7_v26 m ρ c),
      (h c _ (mem_uc main_v51 (by decide))).trans (W7_v51 m ρ c),
      (h c _ (mem_uc main_v96 (by decide))).trans (W7_v96 m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c),
      (h c _ (mem_uc main_arg20 (by decide))).trans (W7_main_arg20 m ρ c),
      (h c _ (mem_uc main_arg21 (by decide))).trans (W7_main_arg21 m ρ c),
      (h c _ (mem_uc main_arg22 (by decide))).trans (W7_main_arg22 m ρ c),
      (h c _ (mem_uc main_arg23 (by decide))).trans (W7_main_arg23 m ρ c),
      (h c _ (mem_uc main_arg24 (by decide))).trans (W7_main_arg24 m ρ c),
      (h c _ (mem_uc main_arg25 (by decide))).trans (W7_main_arg25 m ρ c),
      (h c _ (mem_uc main_arg26 (by decide))).trans (W7_main_arg26 m ρ c)⟩)
    (run_all m ρ)

end Cert.KernelIdeal.Value

end
-- ==== Proof.lean ====
/-
  The certificate: a heterogeneous-graph layer whose linear maps run as three grid launches, against its plain
  reference.

  The program applies a linear layer to the word features, aggregates the result over the word–word edges (gather
  the source rows, weight them, scatter-sum into the destinations, divide by the clamped in-degree), applies two more
  layers to the aggregate and two to the topic features, and aggregates those over the topic–topic, word–document
  and topic–document edges.  The kernel program computes the five linear layers in three grid launches (one layer;
  two in a row; two in a row) with the operands rounded to bf16 on the way into the matrix unit; the reference
  computes them as host products.  Everything else — every gather, scatter-sum, degree count and division — is the
  same host operation in both programs, in the same order.

  At the exact instance the roundings are the identity and a launch's output is, index by index, the reference's
  Σ_k x[r,k]·W[k,q] + b[q] of the same operands: both sides are the same sum over the contracted axis, so no law of
  the extended reals beyond reading both sums at an index is used, and the finiteness precondition is not opened.
  Hence the three results are the same functions of the arguments.

  The three frames are the generated frame runs (the reference's is its generated run with the results dropped); the
  idealization rewrote no operation, so its claim is trivial.
-/
import proofs.«108096_j23192823399227_1_alg».proof.Defs
import proofs.«108096_j23192823399227_1_alg».proof.Proof.Gen.Kernel
import proofs.«108096_j23192823399227_1_alg».proof.Proof.Gen.Kernel.Skeleton
import proofs.«108096_j23192823399227_1_alg».proof.Proof.Gen.Kernel.Launch
import proofs.«108096_j23192823399227_1_alg».proof.Proof.Gen.Kernel.Points
import proofs.«108096_j23192823399227_1_alg».proof.Proof.Gen.Kernel.Frame
import proofs.«108096_j23192823399227_1_alg».proof.Proof.Gen.KernelIdeal
import proofs.«108096_j23192823399227_1_alg».proof.Proof.Gen.KernelIdeal.Skeleton
import proofs.«108096_j23192823399227_1_alg».proof.Proof.Gen.KernelIdeal.Launch
import proofs.«108096_j23192823399227_1_alg».proof.Proof.Gen.KernelIdeal.Points
import proofs.«108096_j23192823399227_1_alg».proof.Proof.Gen.KernelIdeal.Frame
import proofs.«108096_j23192823399227_1_alg».proof.Proof.Gen.ReferenceIdeal
import proofs.«108096_j23192823399227_1_alg».proof.Proof.Gen.Pre_finite_inputs
import proofs.«108096_j23192823399227_1_alg».proof.Proof.Gen.ReferenceIdeal.Run
import proofs.«108096_j23192823399227_1_alg».proof.Proof.Gen.ReferenceIdeal.Read
import proofs.«108096_j23192823399227_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end with each result at the same function of arguments that agree. -/
theorem algebraic : Cert.algebraic_KernelIdeal_ReferenceIdeal := by
  intro m ρ m' ρ' _ hagree
  refine ⟨_, _, _, Cert.KernelIdeal.Value.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20, h21, h22, h23, h24, h25, h26⟩ := hagree c
  obtain ⟨r0, r1, r2, rargs⟩ := h c
  refine ⟨r0.trans ?_, r1.trans ?_, r2.trans ?_, rargs⟩
  · rw [Cert.ReferenceIdeal.Read.val_main_v33_eq, h0, h2, h3, h4, h17, h18, h19, h20, h21, h22]
  · rw [Cert.ReferenceIdeal.Read.val_main_v63_eq, h1, h14, h15, h16, h23, h24, h25, h26]
  · rw [Cert.ReferenceIdeal.Read.val_main_v108_eq, h0, h1, h2, h3, h4, h8, h9, h10, h11, h12, h13, h17, h18, h19, h20, h21, h22, h23, h24, h25, h26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
